-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S256x10 .f32) (main_arg10 : FVec F S10 .f32) (main_v33 : IVec S_ 1) : IVec S_ 1 :=
  let main_v34 : FVec F S256x10 .f32 := Host.absf main_arg9
  let main_cst_12 : FVec F S_ .f32 := constant S_ .f32 0x7F800000#32
  let main_v35 : FVec F S256x10 .f32 := broadcastInDim S256x10 ![] bcast_S_S256x10 main_cst_12
  let main_v36 : IVec S256x10 1 := cmpf .olt main_v34 main_v35
  let main_c_13 : IVec S_ 1 := constantI S_ 1 1#1
  let main_v37 : IVec S_ 1 := (fun x v => Host.reduce IntOp.andi x v reducesTo_S256x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S256 .f32) (main_arg7 : FVec F S256x256 .f32) (main_arg8 : FVec F S256 .f32) (main_arg9 : FVec F S256x10 .f32) (main_arg10 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S256x256 .f32) (main_arg8 : FVec F S256 .f32) (main_arg9 : FVec F S256x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S50000x256 : Shape := ⟨2, ![50000, 256]⟩
abbrev S5000x128 : Shape := ⟨2, ![5000, 128]⟩
abbrev S5000x256 : Shape := ⟨2, ![5000, 256]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 212
  | .vmem => 18
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x10, .f32⟩
  | 10 => ⟨S10, .f32⟩
  | 11 => ⟨S1x800000, .i32⟩
  | 12 => ⟨S800000, .i32⟩
  | 13 => ⟨S1x800000, .i32⟩
  | 14 => ⟨S800000, .i32⟩
  | 15 => ⟨S50000x256, .f32⟩
  | 16 => ⟨S50000, .i32⟩
  | 17 => ⟨S850000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x256, .f32⟩
  | 61 => ⟨S850000x1, .f32⟩
  | 62 => ⟨S850000x256, .f32⟩
  | 63 => ⟨S850000x256, .f32⟩
  | 64 => ⟨S_, .f32⟩
  | 65 => ⟨S50000x256, .f32⟩
  | 66 => ⟨S850000x1, .i32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S50000x256, .f32⟩
  | 75 => ⟨S50000, .i32⟩
  | 76 => ⟨S850000, .i32⟩
  | 77 => ⟨S850000, .i32⟩
  | 78 => ⟨S_, .f32⟩
  | 79 => ⟨S850000, .f32⟩
  | 80 => ⟨S_, .f32⟩
  | 81 => ⟨S50000, .f32⟩
  | 82 => ⟨S850000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x256, .f32⟩
  | 120 => ⟨S850000x1, .f32⟩
  | 121 => ⟨S850000x256, .f32⟩
  | 122 => ⟨S850000x256, .f32⟩
  | 123 => ⟨S_, .f32⟩
  | 124 => ⟨S50000x256, .f32⟩
  | 125 => ⟨S850000x1, .i32⟩
  | 126 => ⟨S50000x256, .f32⟩
  | 127 => ⟨S1x256, .f32⟩
  | _ => ⟨S50000x128, .f32⟩

abbrev hbmTy0_1 (i : Nat) : BufTy := match i % 128 with
  | 0 => ⟨S50000x256, .f32⟩
  | 1 => ⟨S50000x256, .f32⟩
  | 2 => ⟨S_, .f32⟩
  | 3 => ⟨S50000x256, .f32⟩
  | 4 => ⟨S50000x256, .f32⟩
  | 5 => ⟨S50000x256, .f32⟩
  | 6 => ⟨S50000, .i32⟩
  | 7 => ⟨S850000, .i32⟩
  | 8 => ⟨S850000, .i32⟩
  | 9 => ⟨S_, .f32⟩
  | 10 => ⟨S850000, .f32⟩
  | 11 => ⟨S_, .f32⟩
  | 12 => ⟨S50000, .f32⟩
  | 13 => ⟨S850000x1, .i32⟩
  | 14 => ⟨S50000, .f32⟩
  | 15 => ⟨S_, .f32⟩
  | 16 => ⟨S50000, .f32⟩
  | 17 => ⟨S50000, .i1⟩
  | 18 => ⟨S50000, .f32⟩
  | 19 => ⟨S_, .f32⟩
  | 20 => ⟨S_, .f32⟩
  | 21 => ⟨S50000, .f32⟩
  | 22 => ⟨S50000, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x256, .f32⟩
  | 51 => ⟨S850000x1, .f32⟩
  | 52 => ⟨S850000x256, .f32⟩
  | 53 => ⟨S850000x256, .f32⟩
  | 54 => ⟨S_, .f32⟩
  | 55 => ⟨S50000x256, .f32⟩
  | 56 => ⟨S850000x1, .i32⟩
  | 57 => ⟨S50000x256, .f32⟩
  | 58 => ⟨S1x256, .f32⟩
  | 59 => ⟨S50000x256, .f32⟩
  | 60 => ⟨S50000x256, .f32⟩
  | 61 => ⟨S_, .f32⟩
  | 62 => ⟨S50000x256, .f32⟩
  | 63 => ⟨S50000x256, .f32⟩
  | 64 => ⟨S_, .f32⟩
  | 65 => ⟨S64x256, .f32⟩
  | 66 => ⟨S50000x1, .i32⟩
  | 67 => ⟨S64x256, .f32⟩
  | 68 => ⟨S_, .f32⟩
  | 69 => ⟨S50000, .f32⟩
  | 70 => ⟨S_, .f32⟩
  | 71 => ⟨S64, .f32⟩
  | 72 => ⟨S50000x1, .i32⟩
  | 73 => ⟨S64, .f32⟩
  | 74 => ⟨S_, .f32⟩
  | 75 => ⟨S64, .f32⟩
  | 76 => ⟨S64, .f32⟩
  | 77 => ⟨S64x1, .f32⟩
  | 78 => ⟨S64x256, .f32⟩
  | 79 => ⟨S64x256, .f32⟩
  | 80 => ⟨S64x10, .f32⟩
  | 81 => ⟨S1x10, .f32⟩
  | 82 => ⟨S64x10, .f32⟩
  | 83 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | .local _ .vmem, ⟨15, _⟩ => ⟨S64x256, .f32⟩
  | .local _ .vmem, ⟨16, _⟩ => ⟨S256x10, .f32⟩
  | .local _ .vmem, ⟨17, _⟩ => ⟨S64x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_c_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_c_16 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_19 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call3_cst : Ref sig .tc := ⟨.hbm, 130, rfl⟩
abbrev main_call3_v0 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_20 : Ref sig .tc := ⟨.hbm, 137, rfl⟩
abbrev main_v96 : Ref sig .tc := ⟨.hbm, 138, rfl⟩
abbrev main_cst_21 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_22 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_23 : Ref sig .tc := ⟨.hbm, 147, rfl⟩
abbrev main_call4_v0 : Ref sig .tc := ⟨.hbm, 148, rfl⟩
abbrev main_call4_v1 : Ref sig .tc := ⟨.hbm, 149, rfl⟩
abbrev main_v103 : Ref sig .tc := ⟨.hbm, 150, rfl⟩
abbrev main_c_24 : Ref sig .tc := ⟨.hbm, 151, rfl⟩
abbrev main_v104 : Ref sig .tc := ⟨.hbm, 152, rfl⟩
abbrev main_v105 : Ref sig .tc := ⟨.hbm, 153, rfl⟩
abbrev main_c_25 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_26 : Ref sig .tc := ⟨.hbm, 160, rfl⟩
abbrev main_v111 : Ref sig .tc := ⟨.hbm, 161, rfl⟩
abbrev main_v112 : Ref sig .tc := ⟨.hbm, 162, rfl⟩
abbrev main_c_27 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_c_28 : Ref sig .tc := ⟨.hbm, 170, rfl⟩
abbrev main_v119 : Ref sig .tc := ⟨.hbm, 171, rfl⟩
abbrev main_v120 : Ref sig .tc := ⟨.hbm, 172, rfl⟩
abbrev main_c_29 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_30 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_call5_cst : Ref sig .tc := ⟨.hbm, 189, rfl⟩
abbrev main_call5_v0 : Ref sig .tc := ⟨.hbm, 190, rfl⟩
abbrev main_v135 : Ref sig .tc := ⟨.hbm, 191, rfl⟩
abbrev main_cst_31 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_cst_32 : Ref sig .tc := ⟨.hbm, 196, rfl⟩
abbrev main_v139 : Ref sig .tc := ⟨.hbm, 197, rfl⟩
abbrev main_cst_33 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_cst_34 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S64x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S256x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x10_S256x10_0_0 : ∀ a, (![0, 0] : Fin 2 → Nat) a + S256x10.size a ≤ S256x10.size a
  h_S256x10 : 0 < S256x10.numel
  inb_S64x10_S64x10_0_0 : ∀ a, (![0, 0] : Fin 2 → Nat) a + S64x10.size a ≤ S64x10.size a
  h_S64x10 : 0 < S64x10.numel
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S5000x128_S128x256_S5000x256_1_0_0_1_n_n_wf : DotDims.WF S5000x128 S128x256 S5000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x256_S5000x256_1_0_0_1_n_n_wf : DotDims.WF S5000x256 S256x256 S5000x256 [1] [0] [0] [1] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x10_S64x10_1_0_0_1_n_n_wf : DotDims.WF S64x256 S256x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S64x256.size a ≤ S64x256.size a
  hwx3_0 : ∀ i : grid3.Coords, EltTy.bits .f32 = 32 ∨ (Rect.block (s := S64x256) S64x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x10.size a ≤ S256x10.size a
  hwx3_1 : ∀ i : grid3.Coords, EltTy.bits .f32 = 32 ∨ (Rect.block (s := S256x10) S256x10.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S64x10.size a ≤ S64x10.size a
  hwx3_2 : ∀ i : grid3.Coords, EltTy.bits .f32 = 32 ∨ (Rect.block (s := S64x10) S64x10.size (cc3_transform_2 i) (hinb3_2 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v91) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v92) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v147) S64x256.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S256x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v148) S64x10.size cc3_transform_2 reads3_2 true false 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S50000x256 : Shape := ⟨2, ![50000, 256]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 212
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x10, .f32⟩
  | 10 => ⟨S10, .f32⟩
  | 11 => ⟨S1x800000, .i32⟩
  | 12 => ⟨S800000, .i32⟩
  | 13 => ⟨S1x800000, .i32⟩
  | 14 => ⟨S800000, .i32⟩
  | 15 => ⟨S50000x256, .f32⟩
  | 16 => ⟨S50000, .i32⟩
  | 17 => ⟨S850000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x256, .f32⟩
  | 61 => ⟨S850000x1, .f32⟩
  | 62 => ⟨S850000x256, .f32⟩
  | 63 => ⟨S850000x256, .f32⟩
  | 64 => ⟨S_, .f32⟩
  | 65 => ⟨S50000x256, .f32⟩
  | 66 => ⟨S850000x1, .i32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S50000x256, .f32⟩
  | 75 => ⟨S50000, .i32⟩
  | 76 => ⟨S850000, .i32⟩
  | 77 => ⟨S850000, .i32⟩
  | 78 => ⟨S_, .f32⟩
  | 79 => ⟨S850000, .f32⟩
  | 80 => ⟨S_, .f32⟩
  | 81 => ⟨S50000, .f32⟩
  | 82 => ⟨S850000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x256, .f32⟩
  | 120 => ⟨S850000x1, .f32⟩
  | 121 => ⟨S850000x256, .f32⟩
  | 122 => ⟨S850000x256, .f32⟩
  | 123 => ⟨S_, .f32⟩
  | 124 => ⟨S50000x256, .f32⟩
  | 125 => ⟨S850000x1, .i32⟩
  | 126 => ⟨S50000x256, .f32⟩
  | 127 => ⟨S1x256, .f32⟩
  | _ => ⟨S50000x128, .f32⟩

abbrev hbmTy0_1 (i : Nat) : BufTy := match i % 128 with
  | 0 => ⟨S50000x256, .f32⟩
  | 1 => ⟨S50000x256, .f32⟩
  | 2 => ⟨S_, .f32⟩
  | 3 => ⟨S50000x256, .f32⟩
  | 4 => ⟨S50000x256, .f32⟩
  | 5 => ⟨S50000x256, .f32⟩
  | 6 => ⟨S50000, .i32⟩
  | 7 => ⟨S850000, .i32⟩
  | 8 => ⟨S850000, .i32⟩
  | 9 => ⟨S_, .f32⟩
  | 10 => ⟨S850000, .f32⟩
  | 11 => ⟨S_, .f32⟩
  | 12 => ⟨S50000, .f32⟩
  | 13 => ⟨S850000x1, .i32⟩
  | 14 => ⟨S50000, .f32⟩
  | 15 => ⟨S_, .f32⟩
  | 16 => ⟨S50000, .f32⟩
  | 17 => ⟨S50000, .i1⟩
  | 18 => ⟨S50000, .f32⟩
  | 19 => ⟨S_, .f32⟩
  | 20 => ⟨S_, .f32⟩
  | 21 => ⟨S50000, .f32⟩
  | 22 => ⟨S50000, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x256, .f32⟩
  | 51 => ⟨S850000x1, .f32⟩
  | 52 => ⟨S850000x256, .f32⟩
  | 53 => ⟨S850000x256, .f32⟩
  | 54 => ⟨S_, .f32⟩
  | 55 => ⟨S50000x256, .f32⟩
  | 56 => ⟨S850000x1, .i32⟩
  | 57 => ⟨S50000x256, .f32⟩
  | 58 => ⟨S1x256, .f32⟩
  | 59 => ⟨S50000x256, .f32⟩
  | 60 => ⟨S50000x256, .f32⟩
  | 61 => ⟨S_, .f32⟩
  | 62 => ⟨S50000x256, .f32⟩
  | 63 => ⟨S50000x256, .f32⟩
  | 64 => ⟨S_, .f32⟩
  | 65 => ⟨S64x256, .f32⟩
  | 66 => ⟨S50000x1, .i32⟩
  | 67 => ⟨S64x256, .f32⟩
  | 68 => ⟨S_, .f32⟩
  | 69 => ⟨S50000, .f32⟩
  | 70 => ⟨S_, .f32⟩
  | 71 => ⟨S64, .f32⟩
  | 72 => ⟨S50000x1, .i32⟩
  | 73 => ⟨S64, .f32⟩
  | 74 => ⟨S_, .f32⟩
  | 75 => ⟨S64, .f32⟩
  | 76 => ⟨S64, .f32⟩
  | 77 => ⟨S64x1, .f32⟩
  | 78 => ⟨S64x256, .f32⟩
  | 79 => ⟨S64x256, .f32⟩
  | 80 => ⟨S64x10, .f32⟩
  | 81 => ⟨S1x10, .f32⟩
  | 82 => ⟨S64x10, .f32⟩
  | 83 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_c_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_c_16 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_19 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call3_cst : Ref sig .tc := ⟨.hbm, 130, rfl⟩
abbrev main_call3_v0 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_20 : Ref sig .tc := ⟨.hbm, 137, rfl⟩
abbrev main_v96 : Ref sig .tc := ⟨.hbm, 138, rfl⟩
abbrev main_cst_21 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_22 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_23 : Ref sig .tc := ⟨.hbm, 147, rfl⟩
abbrev main_call4_v0 : Ref sig .tc := ⟨.hbm, 148, rfl⟩
abbrev main_call4_v1 : Ref sig .tc := ⟨.hbm, 149, rfl⟩
abbrev main_v103 : Ref sig .tc := ⟨.hbm, 150, rfl⟩
abbrev main_c_24 : Ref sig .tc := ⟨.hbm, 151, rfl⟩
abbrev main_v104 : Ref sig .tc := ⟨.hbm, 152, rfl⟩
abbrev main_v105 : Ref sig .tc := ⟨.hbm, 153, rfl⟩
abbrev main_c_25 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_26 : Ref sig .tc := ⟨.hbm, 160, rfl⟩
abbrev main_v111 : Ref sig .tc := ⟨.hbm, 161, rfl⟩
abbrev main_v112 : Ref sig .tc := ⟨.hbm, 162, rfl⟩
abbrev main_c_27 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_c_28 : Ref sig .tc := ⟨.hbm, 170, rfl⟩
abbrev main_v119 : Ref sig .tc := ⟨.hbm, 171, rfl⟩
abbrev main_v120 : Ref sig .tc := ⟨.hbm, 172, rfl⟩
abbrev main_c_29 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_30 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_call5_cst : Ref sig .tc := ⟨.hbm, 189, rfl⟩
abbrev main_call5_v0 : Ref sig .tc := ⟨.hbm, 190, rfl⟩
abbrev main_v135 : Ref sig .tc := ⟨.hbm, 191, rfl⟩
abbrev main_cst_31 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_cst_32 : Ref sig .tc := ⟨.hbm, 196, rfl⟩
abbrev main_v139 : Ref sig .tc := ⟨.hbm, 197, rfl⟩
abbrev main_cst_33 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_cst_34 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x10_S64x10_1_0_0_1_n_n_wf : DotDims.WF S64x256 S256x10 S64x10 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

class Facts : Prop extends Facts₀ where

variable [Facts]
-- ==== Proof.KernelRun.lean ====
/-
  The idealized kernel's program runs, and its result buffer is named.

  The program is four matrix-product regions among stretches of host operations. Every weakly fair execution
  terminates without a fault; the argument arrays end as launched; and the result buffer ends at what the fold of the
  stretches and the regions, from the launch memory, leaves in it — the contents called W19 at the last boundary.
  The boundary contents, the regions' records and the chain of thread states are the generated frame's; what differs
  from the frame is only what is read off the last thread state: the result buffer beside the arguments.
-/
import proofs.«141370_j57071525429591_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run : θ_run defs (onTc (τ := τ) (main (F := F))) ⟨m, fun _ => 0, ρ⟩ (fun r => ∀ c : Dev nD,
      r.2.mem ((c.tc : Thread nD τ).loc main_v151) = W19 m ρ c (Proc.devRef .tc main_v151)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v151 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c)⟩)

end Cert.KernelIdeal.RunValue

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibRowBlockMatmul.lean ====
/-
  A block of rows of a plain matrix product.

  For the plain contraction `[M, K] × [K, N] → [M, N]` on the extended reals, the host's product (no accumulator)
  and the matrix unit's product into the zero matrix are one function, and both read at `(r, c)` as
  `Σ_k lhs (r, k) · rhs (k, c)`. Hence a product computed on a BLOCK OF ROWS of the left operand — a `[Mb, K]` matrix
  whose row `p` is row `r` of the whole `[Mt, K]` matrix — has, at `(p, c)`, the entry `(r, c)` of the whole product:
  a row of the product depends on that row of the left operand only. All at any extents, and whatever the float
  formats of the four matrices (on the extended reals a change of format is the identity).
-/
import Idealize.ShloMosaic.Lib.ValueIdx
import Idealize.ShloMosaic.PureOps.Ideal.Laws
import proofs.«141370_j57071525429591_1_alg».proof.Proof.LibPlainMatmul

namespace Cert.RowBlockMatmul

open Idealize.ShloMosaic Idealize.ShloMosaic.ValueIdx

/-- The host's product is the matrix unit's product into the zero matrix, for any dimension numbers. -/
theorem dotGeneral_eq_matmul_zero {sl sr so : Shape} {φ₁ φ₂ : FTy} (d : DotDims sl sr so)
    (prec : Option ContractPrecision) (sched : HostSchedule) (lhs : FVec Ideal sl φ₁) (rhs : FVec Ideal sr φ₂) :
    FloatOps.dotGeneral d prec sched lhs rhs = FloatOps.matmul d prec lhs rhs (constant so .f32 0x00000000#32) := by
  funext j
  rw [Ideal.dotGeneral_apply, Ideal.matmul_constant_zero_apply]

variable {M K N : ℕ}

/-- The host's plain product at `(r, c)`: the sum over `k` of `lhs (r, k) · rhs (k, c)`. -/
theorem plainDot_apply {φ₁ φ₂ : FTy} (sched : HostSchedule) (lhs : FVec Ideal ⟨2, ![M, K]⟩ φ₁)
    (rhs : FVec Ideal ⟨2, ![K, N]⟩ φ₂) (r : Fin M) (c : Fin N) :
    FloatOps.dotGeneral (DotDims.plain M K N) none sched lhs rhs (ix2 r c)
      = ∑ k : Fin K, lhs (ix2 r k) * rhs (ix2 k c) := by
  rw [dotGeneral_eq_matmul_zero]
  exact Cert.PlainMatmul.plain_apply lhs rhs r c

/-- A block of rows: if row `p` of `Xb` is row `r` of `X`, and column `c` of `Wb` is column `c` of `W`, the matrix
    unit's product of the blocks at `(p, c)` is the host's product of the whole matrices at `(r, c)`. -/
theorem rowBlock_apply {Mb Mt : ℕ} {φ₁ φ₂ ψ₁ ψ₂ : FTy} (sched : HostSchedule)
    (X : FVec Ideal ⟨2, ![Mt, K]⟩ ψ₁) (W : FVec Ideal ⟨2, ![K, N]⟩ ψ₂)
    (Xb : FVec Ideal ⟨2, ![Mb, K]⟩ φ₁) (Wb : FVec Ideal ⟨2, ![K, N]⟩ φ₂) (p : Fin Mb) (c : Fin N) (r : Fin Mt)
    (hX : ∀ k : Fin K, Xb (ix2 p k) = X (ix2 r k)) (hW : ∀ k : Fin K, Wb (ix2 k c) = W (ix2 k c)) :
    FloatOps.matmul (DotDims.plain Mb K N) none Xb Wb (constant ⟨2, ![Mb, N]⟩ .f32 0x00000000#32) (ix2 p c)
      = FloatOps.dotGeneral (DotDims.plain Mt K N) none sched X W (ix2 r c) := by
  rw [Cert.PlainMatmul.plain_apply, plainDot_apply]
  exact Finset.sum_congr rfl fun k _ => by rw [hX k, hW k]

end Cert.RowBlockMatmul
-- ==== Proof.Tiled0.lean ====
/-
  The matrix product of region 0 of the kernel's program, computed block of rows by block of rows.

  The region multiplies an [50000, 128] matrix X by a [128, 256] matrix W. Its grid has 10 points; point t reads rows
  5000·t … 5000·t + 4999 of X and the whole of W, multiplies them on the matrix unit into a zero accumulator, and writes
  the result back as rows 5000·t … 5000·t + 4999 of the output. Row r of a product depends on row r of the left operand
  only, so entry (p, q) of block t is Σ_k X(5000·t + p, k) · W(k, q): the entry (5000·t + p, q) of the whole product
  X · W. The blocks tile the output (row r lies in block r / 5000), so when the region is left its output array holds
  the whole product — the same function the host's dot_general computes. Nothing here needs the entries to be finite.
-/
import proofs.«141370_j57071525429591_1_alg».proof.Proof.Gen.KernelIdeal.Frame
import proofs.«141370_j57071525429591_1_alg».proof.Proof.LibRowBlockMatmul
import Idealize.ShloMosaic.Lib.Pipeline.Value
import Idealize.ShloMosaic.Lib.ValueIdx

set_option maxRecDepth 16384

noncomputable section

namespace Cert.KernelIdeal.Tiled0

open Idealize.ShloMosaic Idealize.ShloMosaic.TcCoe Idealize.ShloMosaic.ValueIdx Idealize.SL.Sem
open Idealize.ShloMosaic.Pipeline (Dat)
open Cert.KernelIdeal Cert.KernelIdeal.Gen

/-- The whole product X · W, as the host computes it. -/
def whole (X : FVec Ideal S50000x128 .f32) (W : FVec Ideal S128x256 .f32) : FVec Ideal S50000x256 .f32 :=
  Host.dotGeneral (DotDims.plain 50000 128 256) none X W

theorem zero_offsets : (![0, 0] : Fin 2 → Nat) = fun _ => 0 := funext fun a => by fin_cases a <;> rfl

/-- One entry of one block: if row (j 0) of the block of X is row (i 0) of X, the block of W is W, and i and j name the
    same column, then the body's value at j is the whole product at i. -/
theorem block_entry (x0 : Vec Ideal S5000x128 .f32) (x1 : Vec Ideal S128x256 .f32)
    (X : FVec Ideal S50000x128 .f32) (W : FVec Ideal S128x256 .f32) (j : S5000x256.Idx) (i : S50000x256.Idx)
    (hq : (i 1).val = (j 1).val)
    (hX : ∀ k : Fin 128, x0 (ix2 (j 0) k) = X (ix2 (i 0) k))
    (hW : ∀ k : Fin 128, x1 (ix2 k (j 1)) = W (ix2 k (j 1))) :
    k0_pay1 x0 x1 j = whole X W i := by
  have hj : j = ix2 (j 0) (j 1) := eq_ix2 j
  have h1 : (i 1 : Fin 256) = (j 1 : Fin 256) := Fin.ext hq
  have hi : i = ix2 (i 0) (j 1) :=
    (eq_ix2 i).trans (congrArg (fun b : Fin 256 => (ix2 (i 0) b : S50000x256.Idx)) h1)
  have hmid : k0_pay1 x0 x1 (ix2 (j 0) (j 1)) = whole X W (ix2 (i 0) (j 1)) := by
    unfold k0_pay1 whole
    exact Cert.RowBlockMatmul.rowBlock_apply .single X W x0 x1 (j 0) (j 1) (i 0) hX hW
  exact (congrArg (k0_pay1 x0 x1) hj).trans (hmid.trans (congrArg (whole X W) hi).symm)

/-- The printed index maps over the grid: the block of X and the block of the output are both block t along the
    rows and block 0 along the columns; W's block is always block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the whole product of the arrays the region finds. -/
theorem flushed_eq (c : Dev nD) (t : Fin cfg0.N) :
    (dat0 V c).flushed 2 t
      = ((cfg0.win 2).blk t).view.read (Elt Ideal) (whole (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x256) zero_offsets]
  obtain ⟨e0, e1, e2, e3, e4, e5⟩ := index_facts t
  funext j
  show k0_pay1 (iblk0 V c 0 t) (iblk0 V c 1 t) j
    = whole (V c main_arg0) (V c main_arg3) (((cfg0.win 2).blk t).view.emb j)
  refine block_entry (iblk0 V c 0 t) (iblk0 V c 1 t) (V c main_arg0) (V c main_arg3) j
    (((cfg0.win 2).blk t).view.emb j) ?_ (fun k => ?_) (fun k => ?_)
  · show win0_2.index t (1 : Fin 2) * 256 + 1 * (j 1).val = (j 1).val
    omega
  · show V c main_arg0 (((cfg0.win 0).blk t).view.emb (ix2 (j 0) k))
      = V c main_arg0 (ix2 ((((cfg0.win 2).blk t).view.emb j) 0) k)
    refine congrArg (V c main_arg0) ?_
    funext a; apply Fin.ext
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  · show V c main_arg3 (((cfg0.win 1).blk t).view.emb (ix2 k (j 1))) = V c main_arg3 (ix2 k (j 1))
    refine congrArg (V c main_arg3) ?_
    funext a; apply Fin.ext
    match a with
    | ⟨0, _⟩ =>
      show win0_1.index t (0 : Fin 2) * 128 + 1 * k.val = k.val
      omega
    | ⟨1, _⟩ =>
      show win0_1.index t (1 : Fin 2) * 256 + 1 * (j 1).val = (j 1).val
      omega

/-- An index of the output array is in point t's block iff each coordinate is in the block's range on its axis. -/
theorem mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v4).slice (win0_2.rect t)).set ↔ _
  rw [View.set_slice_whole, Rect.mem_set_unit]
  exact Iff.rfl

/-- The blocks tile the output: row r is in the block of point r / 5000. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : grid0.N = 10 := N_0
  have ht : (i 0).val / 5000 < grid0.N := by rw [hN]; omega
  obtain ⟨e0, e1, e2, e3, e4, e5⟩ := index_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    have e4' : win0_2.index ⟨(i 0).val / 5000, ht⟩ (0 : Fin 2) = (i 0).val / 5000 := e4
    omega
  | ⟨1, _⟩ =>
    show win0_2.index ⟨(i 0).val / 5000, ht⟩ (1 : Fin 2) * 256 ≤ (i 1).val
      ∧ (i 1).val < win0_2.index ⟨(i 0).val / 5000, ht⟩ (1 : Fin 2) * 256 + 256
    omega

/-- When the region is left its output array holds the whole product of the arrays it found. -/
theorem final (c : Dev nD) : (dat0 V c).arrAt 2 cfg0.N = whole (V c main_arg0) (V c main_arg3) :=
  (dat0 V c).arrAt_eq_of_cover 2 (whole (V c main_arg0) (V c main_arg3)) (fun t _ => flushed_eq V c t) cover

end Cert.KernelIdeal.Tiled0

end
-- ==== Proof.Tiled1.lean ====
/-
  The matrix product of region 1 of the kernel's program, computed block of rows by block of rows.

  The region multiplies an [50000, 256] matrix X by a [256, 256] matrix W. Its grid has 10 points; point t reads rows
  5000·t … 5000·t + 4999 of X and the whole of W, multiplies them on the matrix unit into a zero accumulator, and writes
  the result back as rows 5000·t … 5000·t + 4999 of the output. Row r of a product depends on row r of the left operand
  only, so entry (p, q) of block t is Σ_k X(5000·t + p, k) · W(k, q): the entry (5000·t + p, q) of the whole product
  X · W. The blocks tile the output (row r lies in block r / 5000), so when the region is left its output array holds
  the whole product — the same function the host's dot_general computes. Nothing here needs the entries to be finite.
-/
import proofs.«141370_j57071525429591_1_alg».proof.Proof.Gen.KernelIdeal.Frame
import proofs.«141370_j57071525429591_1_alg».proof.Proof.LibRowBlockMatmul
import Idealize.ShloMosaic.Lib.Pipeline.Value
import Idealize.ShloMosaic.Lib.ValueIdx

set_option maxRecDepth 16384

noncomputable section

namespace Cert.KernelIdeal.Tiled1

open Idealize.ShloMosaic Idealize.ShloMosaic.TcCoe Idealize.ShloMosaic.ValueIdx Idealize.SL.Sem
open Idealize.ShloMosaic.Pipeline (Dat)
open Cert.KernelIdeal Cert.KernelIdeal.Gen

/-- The whole product X · W, as the host computes it. -/
def whole (X : FVec Ideal S50000x256 .f32) (W : FVec Ideal S256x256 .f32) : FVec Ideal S50000x256 .f32 :=
  Host.dotGeneral (DotDims.plain 50000 256 256) none X W

theorem zero_offsets : (![0, 0] : Fin 2 → Nat) = fun _ => 0 := funext fun a => by fin_cases a <;> rfl

/-- One entry of one block: if row (j 0) of the block of X is row (i 0) of X, the block of W is W, and i and j name the
    same column, then the body's value at j is the whole product at i. -/
theorem block_entry (x0 : Vec Ideal S5000x256 .f32) (x1 : Vec Ideal S256x256 .f32)
    (X : FVec Ideal S50000x256 .f32) (W : FVec Ideal S256x256 .f32) (j : S5000x256.Idx) (i : S50000x256.Idx)
    (hq : (i 1).val = (j 1).val)
    (hX : ∀ k : Fin 256, x0 (ix2 (j 0) k) = X (ix2 (i 0) k))
    (hW : ∀ k : Fin 256, x1 (ix2 k (j 1)) = W (ix2 k (j 1))) :
    k1_pay1 x0 x1 j = whole X W i := by
  have hj : j = ix2 (j 0) (j 1) := eq_ix2 j
  have h1 : (i 1 : Fin 256) = (j 1 : Fin 256) := Fin.ext hq
  have hi : i = ix2 (i 0) (j 1) :=
    (eq_ix2 i).trans (congrArg (fun b : Fin 256 => (ix2 (i 0) b : S50000x256.Idx)) h1)
  have hmid : k1_pay1 x0 x1 (ix2 (j 0) (j 1)) = whole X W (ix2 (i 0) (j 1)) := by
    unfold k1_pay1 whole
    rw [shapeCast_self]
    exact Cert.RowBlockMatmul.rowBlock_apply .single X W x0 x1 (j 0) (j 1) (i 0) hX hW
  exact (congrArg (k1_pay1 x0 x1) hj).trans (hmid.trans (congrArg (whole X W) hi).symm)

/-- The printed index maps over the grid: the block of X and the block of the output are both block t along the
    rows and block 0 along the columns; W's block is always block (0, 0). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the whole product of the arrays the region finds. -/
theorem flushed_eq (c : Dev nD) (t : Fin cfg1.N) :
    (dat1 V c).flushed 2 t
      = ((cfg1.win 2).blk t).view.read (Elt Ideal) (whole (V c main_v47) (V c main_arg5)) := by
  show (cfg1.win 2).cut (grid1.coords t) ((dat1 V c).after 2 t) = _
  rw [after1_2]
  unfold out1_2
  rw [View.canon_unit_zero zero_offsets]
  simp only [View.ld_unit_zero (S := S5000x256) zero_offsets, View.ld_unit_zero (S := S256x256) zero_offsets]
  obtain ⟨e0, e1, e2, e3, e4, e5⟩ := index_facts t
  funext j
  show k1_pay1 (iblk1 V c 0 t) (iblk1 V c 1 t) j
    = whole (V c main_v47) (V c main_arg5) (((cfg1.win 2).blk t).view.emb j)
  refine block_entry (iblk1 V c 0 t) (iblk1 V c 1 t) (V c main_v47) (V c main_arg5) j
    (((cfg1.win 2).blk t).view.emb j) ?_ (fun k => ?_) (fun k => ?_)
  · show win1_2.index t (1 : Fin 2) * 256 + 1 * (j 1).val = (j 1).val
    omega
  · show V c main_v47 (((cfg1.win 0).blk t).view.emb (ix2 (j 0) k))
      = V c main_v47 (ix2 ((((cfg1.win 2).blk t).view.emb j) 0) k)
    refine congrArg (V c main_v47) ?_
    funext a; apply Fin.ext
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 256 + 1 * k.val = k.val
      omega
  · show V c main_arg5 (((cfg1.win 1).blk t).view.emb (ix2 k (j 1))) = V c main_arg5 (ix2 k (j 1))
    refine congrArg (V c main_arg5) ?_
    funext a; apply Fin.ext
    match a with
    | ⟨0, _⟩ =>
      show win1_1.index t (0 : Fin 2) * 256 + 1 * k.val = k.val
      omega
    | ⟨1, _⟩ =>
      show win1_1.index t (1 : Fin 2) * 256 + 1 * (j 1).val = (j 1).val
      omega

/-- An index of the output array is in point t's block iff each coordinate is in the block's range on its axis. -/
theorem mem_blk (t : Fin cfg1.N) (i : S50000x256.Idx) :
    i ∈ ((cfg1.win 2).blk t).view.set ↔ ∀ a : Fin 2, win1_2.index t a * S5000x256.size a ≤ (i a).val
      ∧ (i a).val < win1_2.index t a * S5000x256.size a + S5000x256.size a := by
  show i ∈ ((View.whole main_v48).slice (win1_2.rect t)).set ↔ _
  rw [View.set_slice_whole, Rect.mem_set_unit]
  exact Iff.rfl

/-- The blocks tile the output: row r is in the block of point r / 5000. -/
theorem cover (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : grid1.N = 10 := N_1
  have ht : (i 0).val / 5000 < grid1.N := by rw [hN]; omega
  obtain ⟨e0, e1, e2, e3, e4, e5⟩ := index_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    have e4' : win1_2.index ⟨(i 0).val / 5000, ht⟩ (0 : Fin 2) = (i 0).val / 5000 := e4
    omega
  | ⟨1, _⟩ =>
    show win1_2.index ⟨(i 0).val / 5000, ht⟩ (1 : Fin 2) * 256 ≤ (i 1).val
      ∧ (i 1).val < win1_2.index ⟨(i 0).val / 5000, ht⟩ (1 : Fin 2) * 256 + 256
    omega

/-- When the region is left its output array holds the whole product of the arrays it found. -/
theorem final (c : Dev nD) : (dat1 V c).arrAt 2 cfg1.N = whole (V c main_v47) (V c main_arg5) :=
  (dat1 V c).arrAt_eq_of_cover 2 (whole (V c main_v47) (V c main_arg5)) (fun t _ => flushed_eq V c t) cover

end Cert.KernelIdeal.Tiled1

end
-- ==== Proof.Tiled2.lean ====
/-
  The matrix product of region 2 of the kernel's program, computed block of rows by block of rows.

  The region multiplies an [50000, 256] matrix X by a [256, 256] matrix W. Its grid has 10 points; point t reads rows
  5000·t … 5000·t + 4999 of X and the whole of W, multiplies them on the matrix unit into a zero accumulator, and writes
  the result back as rows 5000·t … 5000·t + 4999 of the output. Row r of a product depends on row r of the left operand
  only, so entry (p, q) of block t is Σ_k X(5000·t + p, k) · W(k, q): the entry (5000·t + p, q) of the whole product
  X · W. The blocks tile the output (row r lies in block r / 5000), so when the region is left its output array holds
  the whole product — the same function the host's dot_general computes. Nothing here needs the entries to be finite.
-/
import proofs.«141370_j57071525429591_1_alg».proof.Proof.Gen.KernelIdeal.Frame
import proofs.«141370_j57071525429591_1_alg».proof.Proof.LibRowBlockMatmul
import Idealize.ShloMosaic.Lib.Pipeline.Value
import Idealize.ShloMosaic.Lib.ValueIdx

set_option maxRecDepth 16384

noncomputable section

namespace Cert.KernelIdeal.Tiled2

open Idealize.ShloMosaic Idealize.ShloMosaic.TcCoe Idealize.ShloMosaic.ValueIdx Idealize.SL.Sem
open Idealize.ShloMosaic.Pipeline (Dat)
open Cert.KernelIdeal Cert.KernelIdeal.Gen

/-- The whole product X · W, as the host computes it. -/
def whole (X : FVec Ideal S50000x256 .f32) (W : FVec Ideal S256x256 .f32) : FVec Ideal S50000x256 .f32 :=
  Host.dotGeneral (DotDims.plain 50000 256 256) none X W

theorem zero_offsets : (![0, 0] : Fin 2 → Nat) = fun _ => 0 := funext fun a => by fin_cases a <;> rfl

/-- One entry of one block: if row (j 0) of the block of X is row (i 0) of X, the block of W is W, and i and j name the
    same column, then the body's value at j is the whole product at i. -/
theorem block_entry (x0 : Vec Ideal S5000x256 .f32) (x1 : Vec Ideal S256x256 .f32)
    (X : FVec Ideal S50000x256 .f32) (W : FVec Ideal S256x256 .f32) (j : S5000x256.Idx) (i : S50000x256.Idx)
    (hq : (i 1).val = (j 1).val)
    (hX : ∀ k : Fin 256, x0 (ix2 (j 0) k) = X (ix2 (i 0) k))
    (hW : ∀ k : Fin 256, x1 (ix2 k (j 1)) = W (ix2 k (j 1))) :
    k2_pay1 x0 x1 j = whole X W i := by
  have hj : j = ix2 (j 0) (j 1) := eq_ix2 j
  have h1 : (i 1 : Fin 256) = (j 1 : Fin 256) := Fin.ext hq
  have hi : i = ix2 (i 0) (j 1) :=
    (eq_ix2 i).trans (congrArg (fun b : Fin 256 => (ix2 (i 0) b : S50000x256.Idx)) h1)
  have hmid : k2_pay1 x0 x1 (ix2 (j 0) (j 1)) = whole X W (ix2 (i 0) (j 1)) := by
    unfold k2_pay1 whole
    rw [shapeCast_self]
    exact Cert.RowBlockMatmul.rowBlock_apply .single X W x0 x1 (j 0) (j 1) (i 0) hX hW
  exact (congrArg (k2_pay1 x0 x1) hj).trans (hmid.trans (congrArg (whole X W) hi).symm)

/-- The printed index maps over the grid: the block of X and the block of the output are both block t along the
    rows and block 0 along the columns; W's block is always block (0, 0). -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the whole product of the arrays the region finds. -/
theorem flushed_eq (c : Dev nD) (t : Fin cfg2.N) :
    (dat2 V c).flushed 2 t
      = ((cfg2.win 2).blk t).view.read (Elt Ideal) (whole (V c main_v91) (V c main_arg7)) := by
  show (cfg2.win 2).cut (grid2.coords t) ((dat2 V c).after 2 t) = _
  rw [after2_2]
  unfold out2_2
  rw [View.canon_unit_zero zero_offsets]
  simp only [View.ld_unit_zero (S := S5000x256) zero_offsets, View.ld_unit_zero (S := S256x256) zero_offsets]
  obtain ⟨e0, e1, e2, e3, e4, e5⟩ := index_facts t
  funext j
  show k2_pay1 (iblk2 V c 0 t) (iblk2 V c 1 t) j
    = whole (V c main_v91) (V c main_arg7) (((cfg2.win 2).blk t).view.emb j)
  refine block_entry (iblk2 V c 0 t) (iblk2 V c 1 t) (V c main_v91) (V c main_arg7) j
    (((cfg2.win 2).blk t).view.emb j) ?_ (fun k => ?_) (fun k => ?_)
  · show win2_2.index t (1 : Fin 2) * 256 + 1 * (j 1).val = (j 1).val
    omega
  · show V c main_v91 (((cfg2.win 0).blk t).view.emb (ix2 (j 0) k))
      = V c main_v91 (ix2 ((((cfg2.win 2).blk t).view.emb j) 0) k)
    refine congrArg (V c main_v91) ?_
    funext a; apply Fin.ext
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 256 + 1 * k.val = k.val
      omega
  · show V c main_arg7 (((cfg2.win 1).blk t).view.emb (ix2 k (j 1))) = V c main_arg7 (ix2 k (j 1))
    refine congrArg (V c main_arg7) ?_
    funext a; apply Fin.ext
    match a with
    | ⟨0, _⟩ =>
      show win2_1.index t (0 : Fin 2) * 256 + 1 * k.val = k.val
      omega
    | ⟨1, _⟩ =>
      show win2_1.index t (1 : Fin 2) * 256 + 1 * (j 1).val = (j 1).val
      omega

/-- An index of the output array is in point t's block iff each coordinate is in the block's range on its axis. -/
theorem mem_blk (t : Fin cfg2.N) (i : S50000x256.Idx) :
    i ∈ ((cfg2.win 2).blk t).view.set ↔ ∀ a : Fin 2, win2_2.index t a * S5000x256.size a ≤ (i a).val
      ∧ (i a).val < win2_2.index t a * S5000x256.size a + S5000x256.size a := by
  show i ∈ ((View.whole main_v92).slice (win2_2.rect t)).set ↔ _
  rw [View.set_slice_whole, Rect.mem_set_unit]
  exact Iff.rfl

/-- The blocks tile the output: row r is in the block of point r / 5000. -/
theorem cover (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : grid2.N = 10 := N_2
  have ht : (i 0).val / 5000 < grid2.N := by rw [hN]; omega
  obtain ⟨e0, e1, e2, e3, e4, e5⟩ := index_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    have e4' : win2_2.index ⟨(i 0).val / 5000, ht⟩ (0 : Fin 2) = (i 0).val / 5000 := e4
    omega
  | ⟨1, _⟩ =>
    show win2_2.index ⟨(i 0).val / 5000, ht⟩ (1 : Fin 2) * 256 ≤ (i 1).val
      ∧ (i 1).val < win2_2.index ⟨(i 0).val / 5000, ht⟩ (1 : Fin 2) * 256 + 256
    omega

/-- When the region is left its output array holds the whole product of the arrays it found. -/
theorem final (c : Dev nD) : (dat2 V c).arrAt 2 cfg2.N = whole (V c main_v91) (V c main_arg7) :=
  (dat2 V c).arrAt_eq_of_cover 2 (whole (V c main_v91) (V c main_arg7)) (fun t _ => flushed_eq V c t) cover

end Cert.KernelIdeal.Tiled2

end
-- ==== Proof.Tiled3.lean ====
/-
  The matrix product of region 3 of the kernel's program, computed in one block.

  The region multiplies an [64, 256] matrix X by a [256, 10] matrix W. Its grid has one point, whose block is the whole of X. Row r of a product depends on row r of the left operand
  only, so entry (p, q) of block t is Σ_k X(64·t + p, k) · W(k, q): the entry (64·t + p, q) of the whole product
  X · W. The blocks tile the output (row r lies in block r / 64), so when the region is left its output array holds
  the whole product — the same function the host's dot_general computes. Nothing here needs the entries to be finite.
-/
import proofs.«141370_j57071525429591_1_alg».proof.Proof.Gen.KernelIdeal.Frame
import proofs.«141370_j57071525429591_1_alg».proof.Proof.LibRowBlockMatmul
import Idealize.ShloMosaic.Lib.Pipeline.Value
import Idealize.ShloMosaic.Lib.ValueIdx

set_option maxRecDepth 16384

noncomputable section

namespace Cert.KernelIdeal.Tiled3

open Idealize.ShloMosaic Idealize.ShloMosaic.TcCoe Idealize.ShloMosaic.ValueIdx Idealize.SL.Sem
open Idealize.ShloMosaic.Pipeline (Dat)
open Cert.KernelIdeal Cert.KernelIdeal.Gen

/-- The whole product X · W, as the host computes it. -/
def whole (X : FVec Ideal S64x256 .f32) (W : FVec Ideal S256x10 .f32) : FVec Ideal S64x10 .f32 :=
  Host.dotGeneral (DotDims.plain 64 256 10) none X W

theorem zero_offsets : (![0, 0] : Fin 2 → Nat) = fun _ => 0 := funext fun a => by fin_cases a <;> rfl

/-- One entry of one block: if row (j 0) of the block of X is row (i 0) of X, the block of W is W, and i and j name the
    same column, then the body's value at j is the whole product at i. -/
theorem block_entry (x0 : Vec Ideal S64x256 .f32) (x1 : Vec Ideal S256x10 .f32)
    (X : FVec Ideal S64x256 .f32) (W : FVec Ideal S256x10 .f32) (j : S64x10.Idx) (i : S64x10.Idx)
    (hq : (i 1).val = (j 1).val)
    (hX : ∀ k : Fin 256, x0 (ix2 (j 0) k) = X (ix2 (i 0) k))
    (hW : ∀ k : Fin 256, x1 (ix2 k (j 1)) = W (ix2 k (j 1))) :
    k3_pay1 x0 x1 j = whole X W i := by
  have hj : j = ix2 (j 0) (j 1) := eq_ix2 j
  have h1 : (i 1 : Fin 10) = (j 1 : Fin 10) := Fin.ext hq
  have hi : i = ix2 (i 0) (j 1) :=
    (eq_ix2 i).trans (congrArg (fun b : Fin 10 => (ix2 (i 0) b : S64x10.Idx)) h1)
  have hmid : k3_pay1 x0 x1 (ix2 (j 0) (j 1)) = whole X W (ix2 (i 0) (j 1)) := by
    unfold k3_pay1 whole
    rw [shapeCast_self]
    exact Cert.RowBlockMatmul.rowBlock_apply .single X W x0 x1 (j 0) (j 1) (i 0) hX hW
  exact (congrArg (k3_pay1 x0 x1) hj).trans (hmid.trans (congrArg (whole X W) hi).symm)

/-- The printed index maps over the grid: the block of X and the block of the output are both block t along the
    rows and block 0 along the columns; W's block is always block (0, 0). -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point t writes back is block t of the whole product of the arrays the region finds. -/
theorem flushed_eq (c : Dev nD) (t : Fin cfg3.N) :
    (dat3 V c).flushed 2 t
      = ((cfg3.win 2).blk t).view.read (Elt Ideal) (whole (V c main_v147) (V c main_arg9)) := by
  show (cfg3.win 2).cut (grid3.coords t) ((dat3 V c).after 2 t) = _
  rw [after3_2]
  unfold out3_2
  rw [View.canon_unit_zero zero_offsets]
  simp only [View.ld_unit_zero (S := S64x256) zero_offsets, View.ld_unit_zero (S := S256x10) zero_offsets]
  obtain ⟨e0, e1, e2, e3, e4, e5⟩ := index_facts t
  funext j
  show k3_pay1 (iblk3 V c 0 t) (iblk3 V c 1 t) j
    = whole (V c main_v147) (V c main_arg9) (((cfg3.win 2).blk t).view.emb j)
  refine block_entry (iblk3 V c 0 t) (iblk3 V c 1 t) (V c main_v147) (V c main_arg9) j
    (((cfg3.win 2).blk t).view.emb j) ?_ (fun k => ?_) (fun k => ?_)
  · show win3_2.index t (1 : Fin 2) * 10 + 1 * (j 1).val = (j 1).val
    omega
  · show V c main_v147 (((cfg3.win 0).blk t).view.emb (ix2 (j 0) k))
      = V c main_v147 (ix2 ((((cfg3.win 2).blk t).view.emb j) 0) k)
    refine congrArg (V c main_v147) ?_
    funext a; apply Fin.ext
    match a with
    | ⟨0, _⟩ =>
      show win3_0.index t (0 : Fin 2) * 64 + 1 * (j 0).val = win3_2.index t (0 : Fin 2) * 64 + 1 * (j 0).val
      omega
    | ⟨1, _⟩ =>
      show win3_0.index t (1 : Fin 2) * 256 + 1 * k.val = k.val
      omega
  · show V c main_arg9 (((cfg3.win 1).blk t).view.emb (ix2 k (j 1))) = V c main_arg9 (ix2 k (j 1))
    refine congrArg (V c main_arg9) ?_
    funext a; apply Fin.ext
    match a with
    | ⟨0, _⟩ =>
      show win3_1.index t (0 : Fin 2) * 256 + 1 * k.val = k.val
      omega
    | ⟨1, _⟩ =>
      show win3_1.index t (1 : Fin 2) * 10 + 1 * (j 1).val = (j 1).val
      omega

/-- An index of the output array is in point t's block iff each coordinate is in the block's range on its axis. -/
theorem mem_blk (t : Fin cfg3.N) (i : S64x10.Idx) :
    i ∈ ((cfg3.win 2).blk t).view.set ↔ ∀ a : Fin 2, win3_2.index t a * S64x10.size a ≤ (i a).val
      ∧ (i a).val < win3_2.index t a * S64x10.size a + S64x10.size a := by
  show i ∈ ((View.whole main_v148).slice (win3_2.rect t)).set ↔ _
  rw [View.set_slice_whole, Rect.mem_set_unit]
  exact Iff.rfl

/-- The blocks tile the output: row r is in the block of point r / 64. -/
theorem cover (i : S64x10.Idx) :
    ∃ t : Fin cfg3.N, (cfg3.win 2).flush t = true ∧ i ∈ ((cfg3.win 2).blk t).view.set := by
  have hi0 : (i 0).val < 64 := (i 0).isLt
  have hi1 : (i 1).val < 10 := (i 1).isLt
  have hN : grid3.N = 1 := N_3
  have ht : (i 0).val / 64 < grid3.N := by rw [hN]; omega
  obtain ⟨e0, e1, e2, e3, e4, e5⟩ := index_facts ⟨(i 0).val / 64, ht⟩
  refine ⟨⟨(i 0).val / 64, ht⟩, flush3_2 _, ?_⟩
  rw [mem_blk]
  intro a
  match a with
  | ⟨0, _⟩ =>
    show win3_2.index ⟨(i 0).val / 64, ht⟩ (0 : Fin 2) * 64 ≤ (i 0).val
      ∧ (i 0).val < win3_2.index ⟨(i 0).val / 64, ht⟩ (0 : Fin 2) * 64 + 64
    have e4' : win3_2.index ⟨(i 0).val / 64, ht⟩ (0 : Fin 2) = (i 0).val / 64 := e4
    omega
  | ⟨1, _⟩ =>
    show win3_2.index ⟨(i 0).val / 64, ht⟩ (1 : Fin 2) * 10 ≤ (i 1).val
      ∧ (i 1).val < win3_2.index ⟨(i 0).val / 64, ht⟩ (1 : Fin 2) * 10 + 10
    omega

/-- When the region is left its output array holds the whole product of the arrays it found. -/
theorem final (c : Dev nD) : (dat3 V c).arrAt 2 cfg3.N = whole (V c main_v147) (V c main_arg9) :=
  (dat3 V c).arrAt_eq_of_cover 2 (whole (V c main_v147) (V c main_arg9)) (fun t _ => flushed_eq V c t) cover

end Cert.KernelIdeal.Tiled3

end
-- ==== Proof.KernelFold.lean ====
/-
  The kernel's program as one line of host operations.

  Each of the four regions leaves in the TensorCore's buffers exactly what ONE host operation would: the whole
  matrix product of its two input arrays in its output array, everything else untouched (the tiled products of
  Tiled0 … Tiled3). So the contents at the last boundary are the fold of host operations only — the stretches
  of the program with each region replaced by a dot_general — and that line is, operation by operation, the reference's.
-/
import proofs.«141370_j57071525429591_1_alg».proof.Proof.Gen.KernelIdeal.Frame
import proofs.«141370_j57071525429591_1_alg».proof.Proof.Tiled0
import proofs.«141370_j57071525429591_1_alg».proof.Proof.Tiled1
import proofs.«141370_j57071525429591_1_alg».proof.Proof.Tiled2
import proofs.«141370_j57071525429591_1_alg».proof.Proof.Tiled3
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- Region 0 as ONE host operation: the whole product of its two input arrays, written to its output array. -/
abbrev dot0 : HloOp τ sig (Elt Ideal) :=
  StableHlo.binary main_arg0 main_arg3 main_v4 ((fun l r => Tiled0.whole l r) : (⟨S50000x128, .f32⟩ : BufTy).Contents (Elt Ideal) → (⟨S128x256, .f32⟩ : BufTy).Contents (Elt Ideal) → (⟨S50000x256, .f32⟩ : BufTy).Contents (Elt Ideal))

/-- What region 0 leaves in the TensorCore's buffers is what that one operation leaves: its output array at the whole
    product, its two input arrays and every other buffer as they were. -/
theorem region0 (c : Dev nD) : W2 m ρ c = (dot0).result (W1 m ρ c) := by
  funext b
  by_cases h : ∃ w, Proc.devRef .tc (Pipeline.arrRef spec0 w) = b
  · obtain ⟨w, rfl⟩ := h
    refine (W2_arr m ρ c w).trans ?_
    match w with
    | ⟨0, _⟩ =>
      exact (((dat0 (V1 m ρ) c).arrAt_in 0 rfl _).trans (A_eq0 (V1 m ρ) c 0)).trans
        (StableHlo.binary_result_ne main_arg0 main_arg3 main_v4 _ _ _ _ (W1 m ρ c) (r := main_arg0) (by decide)).symm
    | ⟨1, _⟩ =>
      exact (((dat0 (V1 m ρ) c).arrAt_in 1 rfl _).trans (A_eq0 (V1 m ρ) c 1)).trans
        (StableHlo.binary_result_ne main_arg0 main_arg3 main_v4 _ _ _ _ (W1 m ρ c) (r := main_arg3) (by decide)).symm
    | ⟨2, _⟩ =>
      exact (Tiled0.final (V1 m ρ) c).trans
        (StableHlo.binary_result main_arg0 main_arg3 main_v4 _ _ _ _ (W1 m ρ c)).symm
  · have hb : b ∉ (dot0).writes := by
      rw [StableHlo.binary_writes, Finset.mem_singleton]
      intro e
      exact h ⟨2, e.symm⟩
    rw [HloOp.result_of_not_mem _ _ hb]
    unfold W2 Pipeline.withArrays
    rw [dif_neg h]

/-- Region 1 as ONE host operation: the whole product of its two input arrays, written to its output array. -/
abbrev dot1 : HloOp τ sig (Elt Ideal) :=
  StableHlo.binary main_v47 main_arg5 main_v48 ((fun l r => Tiled1.whole l r) : (⟨S50000x256, .f32⟩ : BufTy).Contents (Elt Ideal) → (⟨S256x256, .f32⟩ : BufTy).Contents (Elt Ideal) → (⟨S50000x256, .f32⟩ : BufTy).Contents (Elt Ideal))

/-- What region 1 leaves in the TensorCore's buffers is what that one operation leaves: its output array at the whole
    product, its two input arrays and every other buffer as they were. -/
theorem region1 (c : Dev nD) : W7 m ρ c = (dot1).result (W6 m ρ c) := by
  funext b
  by_cases h : ∃ w, Proc.devRef .tc (Pipeline.arrRef spec1 w) = b
  · obtain ⟨w, rfl⟩ := h
    refine (W7_arr m ρ c w).trans ?_
    match w with
    | ⟨0, _⟩ =>
      exact (((dat1 (V6 m ρ) c).arrAt_in 0 rfl _).trans (A_eq1 (V6 m ρ) c 0)).trans
        (StableHlo.binary_result_ne main_v47 main_arg5 main_v48 _ _ _ _ (W6 m ρ c) (r := main_v47) (by decide)).symm
    | ⟨1, _⟩ =>
      exact (((dat1 (V6 m ρ) c).arrAt_in 1 rfl _).trans (A_eq1 (V6 m ρ) c 1)).trans
        (StableHlo.binary_result_ne main_v47 main_arg5 main_v48 _ _ _ _ (W6 m ρ c) (r := main_arg5) (by decide)).symm
    | ⟨2, _⟩ =>
      exact (Tiled1.final (V6 m ρ) c).trans
        (StableHlo.binary_result main_v47 main_arg5 main_v48 _ _ _ _ (W6 m ρ c)).symm
  · have hb : b ∉ (dot1).writes := by
      rw [StableHlo.binary_writes, Finset.mem_singleton]
      intro e
      exact h ⟨2, e.symm⟩
    rw [HloOp.result_of_not_mem _ _ hb]
    unfold W7 Pipeline.withArrays
    rw [dif_neg h]

/-- Region 2 as ONE host operation: the whole product of its two input arrays, written to its output array. -/
abbrev dot2 : HloOp τ sig (Elt Ideal) :=
  StableHlo.binary main_v91 main_arg7 main_v92 ((fun l r => Tiled2.whole l r) : (⟨S50000x256, .f32⟩ : BufTy).Contents (Elt Ideal) → (⟨S256x256, .f32⟩ : BufTy).Contents (Elt Ideal) → (⟨S50000x256, .f32⟩ : BufTy).Contents (Elt Ideal))

/-- What region 2 leaves in the TensorCore's buffers is what that one operation leaves: its output array at the whole
    product, its two input arrays and every other buffer as they were. -/
theorem region2 (c : Dev nD) : W12 m ρ c = (dot2).result (W11 m ρ c) := by
  funext b
  by_cases h : ∃ w, Proc.devRef .tc (Pipeline.arrRef spec2 w) = b
  · obtain ⟨w, rfl⟩ := h
    refine (W12_arr m ρ c w).trans ?_
    match w with
    | ⟨0, _⟩ =>
      exact (((dat2 (V11 m ρ) c).arrAt_in 0 rfl _).trans (A_eq2 (V11 m ρ) c 0)).trans
        (StableHlo.binary_result_ne main_v91 main_arg7 main_v92 _ _ _ _ (W11 m ρ c) (r := main_v91) (by decide)).symm
    | ⟨1, _⟩ =>
      exact (((dat2 (V11 m ρ) c).arrAt_in 1 rfl _).trans (A_eq2 (V11 m ρ) c 1)).trans
        (StableHlo.binary_result_ne main_v91 main_arg7 main_v92 _ _ _ _ (W11 m ρ c) (r := main_arg7) (by decide)).symm
    | ⟨2, _⟩ =>
      exact (Tiled2.final (V11 m ρ) c).trans
        (StableHlo.binary_result main_v91 main_arg7 main_v92 _ _ _ _ (W11 m ρ c)).symm
  · have hb : b ∉ (dot2).writes := by
      rw [StableHlo.binary_writes, Finset.mem_singleton]
      intro e
      exact h ⟨2, e.symm⟩
    rw [HloOp.result_of_not_mem _ _ hb]
    unfold W12 Pipeline.withArrays
    rw [dif_neg h]

/-- Region 3 as ONE host operation: the whole product of its two input arrays, written to its output array. -/
abbrev dot3 : HloOp τ sig (Elt Ideal) :=
  StableHlo.binary main_v147 main_arg9 main_v148 ((fun l r => Tiled3.whole l r) : (⟨S64x256, .f32⟩ : BufTy).Contents (Elt Ideal) → (⟨S256x10, .f32⟩ : BufTy).Contents (Elt Ideal) → (⟨S64x10, .f32⟩ : BufTy).Contents (Elt Ideal))

/-- What region 3 leaves in the TensorCore's buffers is what that one operation leaves: its output array at the whole
    product, its two input arrays and every other buffer as they were. -/
theorem region3 (c : Dev nD) : W18 m ρ c = (dot3).result (W17 m ρ c) := by
  funext b
  by_cases h : ∃ w, Proc.devRef .tc (Pipeline.arrRef spec3 w) = b
  · obtain ⟨w, rfl⟩ := h
    refine (W18_arr m ρ c w).trans ?_
    match w with
    | ⟨0, _⟩ =>
      exact (((dat3 (V17 m ρ) c).arrAt_in 0 rfl _).trans (A_eq3 (V17 m ρ) c 0)).trans
        (StableHlo.binary_result_ne main_v147 main_arg9 main_v148 _ _ _ _ (W17 m ρ c) (r := main_v147) (by decide)).symm
    | ⟨1, _⟩ =>
      exact (((dat3 (V17 m ρ) c).arrAt_in 1 rfl _).trans (A_eq3 (V17 m ρ) c 1)).trans
        (StableHlo.binary_result_ne main_v147 main_arg9 main_v148 _ _ _ _ (W17 m ρ c) (r := main_arg9) (by decide)).symm
    | ⟨2, _⟩ =>
      exact (Tiled3.final (V17 m ρ) c).trans
        (StableHlo.binary_result main_v147 main_arg9 main_v148 _ _ _ _ (W17 m ρ c)).symm
  · have hb : b ∉ (dot3).writes := by
      rw [StableHlo.binary_writes, Finset.mem_singleton]
      intro e
      exact h ⟨2, e.symm⟩
    rw [HloOp.result_of_not_mem _ _ hb]
    unfold W18 Pipeline.withArrays
    rw [dif_neg h]

end Cert.KernelIdeal.Fold

end
-- ==== Proof.LibBeside.lean ====
/-
  Two arrays laid side by side along an axis, as a function of the two pieces.

  The concatenation of two arrays takes its operands as a list of pairs (a shape, an array of that shape); written
  as a function `beside` of the two arrays themselves it is the same array, and a rewriting pass that cannot look
  inside a dependent pair can then reach the pieces.
-/
import Idealize.ShloMosaic.Lib.Pipeline.Value

namespace Cert.SideBySide

open Idealize.ShloMosaic

/-- The array of shape `t` laid along axis `a` from a piece of shape `s₁` followed by a piece of shape `s₂`. -/
def beside {α : Type} (t : Shape) (a : Fin t.rank) {s₁ s₂ : Shape} (h : Shape.Concatenates [s₁, s₂] t a)
    (x₁ : s₁.Idx → α) (x₂ : s₂.Idx → α) : t.Idx → α :=
  concatenate t a [⟨s₁, x₁⟩, ⟨s₂, x₂⟩] h

/-- A two-operand concatenation is `beside` of its two operands. -/
theorem concatenate_pair {α : Type} (t : Shape) (a : Fin t.rank) {s₁ s₂ : Shape} (x₁ : s₁.Idx → α) (x₂ : s₂.Idx → α)
    (h : Shape.Concatenates [s₁, s₂] t a) :
    concatenate t a [⟨s₁, x₁⟩, ⟨s₂, x₂⟩] h = beside t a h x₁ x₂ := rfl

end Cert.SideBySide
-- ==== Proof.ReferenceAfter.lean ====
/-
  The reference's result as a fold of its operations.

  The reference program is a line of 201 host operations. Folding each operation's result function over the launch
  contents, in order, and reading the result buffer afterwards gives the composed term of the arguments that the
  reference's run ends at: each operation's result at its own buffer is its function of its operands' contents, and at
  every other buffer what was there before. This holds for any float values, so it is stated for all of them.
-/
import proofs.«141370_j57071525429591_1_alg».proof.Proof.ReferenceRun

noncomputable section

namespace Cert.ReferenceIdeal.AfterValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 80400000 in
/-- The result buffer after the fold of the reference's operations over the launch contents is the reference's
    composed result term of the arguments. -/
theorem after_eq (m : (ℓ : Loc nD τ sig) → Buf (Elt F) ℓ) (c : Dev nD) :
    after (ValueP.ops (F := F)) (launchContents m c) (Proc.devRef .tc main_v151) = ValueP.res_main_v151 m c := by
  after_results_simp <;> rfl <;> (unfold ValueP.res_main_v151; rfl)

end Cert.ReferenceIdeal.AfterValue

end
-- ==== Proof.ResultEq.lean ====
/-
  The two programs compute one function.

  Read as a line of host operations (each region one dot_general: Fold.region0 … region3), the kernel's program is the
  reference's program operation by operation: the same slices of the edge list, the same degrees, inverse square
  roots, gathers, scatter-adds, biases, rectifiers, the same pooling by graph and the same final bias. So the contents
  of the result buffer at the last boundary, unfolded operation by operation down to the argument arrays, are the
  fold of the reference's operations unfolded the same way, once the two memories agree on the arguments; and that
  fold is the term the reference's run ends at (AfterValue.after_eq). No algebraic law is used: a matrix product
  computed block of rows by block of rows is the matrix product (Tiled0 … Tiled3), and nothing else differs.
-/
import proofs.«141370_j57071525429591_1_alg».proof.Proof.KernelFold
import proofs.«141370_j57071525429591_1_alg».proof.Proof.LibBeside
import proofs.«141370_j57071525429591_1_alg».proof.Proof.ReferenceRun
import proofs.«141370_j57071525429591_1_alg».proof.Proof.ReferenceAfter

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

set_option maxRecDepth 100000 in
set_option maxHeartbeats 80400000 in
/-- The result buffer's contents at the last boundary are what the fold of the reference's operations leaves in the
    reference's result buffer, for memories that agree on the eleven arguments: unfolded operation by operation, the
    two sides are the same composition of the same functions of the same argument arrays. -/
theorem kernel_eq_after (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10)) :
    W19 m ρ c (Proc.devRef .tc main_v151) =
      StableHlo.after (Cert.ReferenceIdeal.ValueP.ops (F := Ideal)) (StableHlo.launchContents m' c) (Proc.devRef .tc Cert.ReferenceIdeal.main_v151) := by
  -- the two launch memories hold the same eleven argument arrays
  have e0 : StableHlo.launchContents m' c (Proc.devRef .tc Cert.ReferenceIdeal.main_arg0) = W0 m ρ c (Proc.devRef .tc main_arg0) := h0
  have e1 : StableHlo.launchContents m' c (Proc.devRef .tc Cert.ReferenceIdeal.main_arg1) = W0 m ρ c (Proc.devRef .tc main_arg1) := h1
  have e2 : StableHlo.launchContents m' c (Proc.devRef .tc Cert.ReferenceIdeal.main_arg2) = W0 m ρ c (Proc.devRef .tc main_arg2) := h2
  have e3 : StableHlo.launchContents m' c (Proc.devRef .tc Cert.ReferenceIdeal.main_arg3) = W0 m ρ c (Proc.devRef .tc main_arg3) := h3
  have e4 : StableHlo.launchContents m' c (Proc.devRef .tc Cert.ReferenceIdeal.main_arg4) = W0 m ρ c (Proc.devRef .tc main_arg4) := h4
  have e5 : StableHlo.launchContents m' c (Proc.devRef .tc Cert.ReferenceIdeal.main_arg5) = W0 m ρ c (Proc.devRef .tc main_arg5) := h5
  have e6 : StableHlo.launchContents m' c (Proc.devRef .tc Cert.ReferenceIdeal.main_arg6) = W0 m ρ c (Proc.devRef .tc main_arg6) := h6
  have e7 : StableHlo.launchContents m' c (Proc.devRef .tc Cert.ReferenceIdeal.main_arg7) = W0 m ρ c (Proc.devRef .tc main_arg7) := h7
  have e8 : StableHlo.launchContents m' c (Proc.devRef .tc Cert.ReferenceIdeal.main_arg8) = W0 m ρ c (Proc.devRef .tc main_arg8) := h8
  have e9 : StableHlo.launchContents m' c (Proc.devRef .tc Cert.ReferenceIdeal.main_arg9) = W0 m ρ c (Proc.devRef .tc main_arg9) := h9
  have e10 : StableHlo.launchContents m' c (Proc.devRef .tc Cert.ReferenceIdeal.main_arg10) = W0 m ρ c (Proc.devRef .tc main_arg10) := h10
  simp only [Cert.ReferenceIdeal.ValueP.ops, W19, W17, W16, W15, W14, W13, W11, W10, W9, W8, W6, W5, W4, W3, W1, region3, region2, region1, region0,
    dot0, dot1, dot2, dot3, hostOps0, hostOps1, hostOps1_1, hostOps1_2, hostOps1_3, hostOps2, hostOps2_1, hostOps2_2, hostOps2_3,
    hostOps3, hostOps3_1, hostOps3_2, hostOps3_3, hostOps3_4, hostOps4, Tiled0.whole, Tiled1.whole, Tiled2.whole, Tiled3.whole]
  -- every operation's result at its own buffer is its function's value, at any other buffer what was there; a
  -- concatenation is read as a function of its two pieces so that the pieces are reached too
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.SideBySide.concatenate_pair]
  simp only [e0, e1, e2, e3, e4, e5, e6, e7, e8, e9, e10]
  all_goals rfl

/-- The result buffer's contents at the last boundary are the reference's result term, for memories that agree on
    the eleven arguments. -/
theorem result_eq (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10)) :
    W19 m ρ c (Proc.devRef .tc main_v151) = Cert.ReferenceIdeal.ValueP.res_main_v151 (F := Ideal) m' c :=
  (kernel_eq_after m ρ m' c h0 h1 h2 h3 h4 h5 h6 h7 h8 h9 h10).trans (Cert.ReferenceIdeal.AfterValue.after_eq (F := Ideal) m' c)

end Cert.KernelIdeal.Fold

end
-- ==== Proof.lean ====
/-
  The certificate of a three-layer graph convolution network with mean pooling and a linear classifier, whose four
  dense products (x·W0, h1·W1, h2·W2 over 50000 nodes, and pooled·lin_W over 64 graphs) the kernel computes in
  matrix-unit regions tiled over blocks of 5000 rows (the last in one block), against a reference that computes them
  with the host's dot_general. Everything else — self loops, degrees, symmetric normalisation, gather of the source
  rows, scatter-add to the targets, bias, rectifier, pooling by graph — is the same host text in both programs.

  frames: the two kernel programs' are generated whole; the reference's is its run (ReferenceRun) with the result dropped.
  preserves: the ideal pass rewrote nothing.
  algebraic: on the extended reals a product computed block of rows by block of rows is the whole product, entry by
  entry (Tiled0 … Tiled3), so each region leaves what one dot_general would (KernelFold), the kernel's program read as
  a line of host operations is the reference's (ResultEq), and its run ends with the result buffer at that line's
  value (KernelRun). The precondition is not used: no step needs an entry to be finite.
-/
import proofs.«141370_j57071525429591_1_alg».proof.Defs
import proofs.«141370_j57071525429591_1_alg».proof.Proof.Gen.Kernel
import proofs.«141370_j57071525429591_1_alg».proof.Proof.Gen.Kernel.Skeleton
import proofs.«141370_j57071525429591_1_alg».proof.Proof.Gen.Kernel.Launch
import proofs.«141370_j57071525429591_1_alg».proof.Proof.Gen.Kernel.Points
import proofs.«141370_j57071525429591_1_alg».proof.Proof.Gen.Kernel.Frame
import proofs.«141370_j57071525429591_1_alg».proof.Proof.Gen.KernelIdeal
import proofs.«141370_j57071525429591_1_alg».proof.Proof.Gen.KernelIdeal.Skeleton
import proofs.«141370_j57071525429591_1_alg».proof.Proof.Gen.KernelIdeal.Launch
import proofs.«141370_j57071525429591_1_alg».proof.Proof.Gen.KernelIdeal.Points
import proofs.«141370_j57071525429591_1_alg».proof.Proof.Gen.KernelIdeal.Frame
import proofs.«141370_j57071525429591_1_alg».proof.Proof.Gen.ReferenceIdeal
import proofs.«141370_j57071525429591_1_alg».proof.Proof.Gen.Pre_finite_inputs
import proofs.«141370_j57071525429591_1_alg».proof.Proof.ReferenceRun
import proofs.«141370_j57071525429591_1_alg».proof.Proof.KernelRun
import proofs.«141370_j57071525429591_1_alg».proof.Proof.ResultEq
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result buffer at the reference's result term of the shared arguments. -/
theorem algebraic : Cert.algebraic_KernelIdeal_ReferenceIdeal := by
  intro m ρ m' ρ' _ hagree
  refine ⟨fun c => Cert.ReferenceIdeal.ValueP.res_main_v151 (F := Ideal) m' c, ?_,
    Cert.ReferenceIdeal.ValueP.run (F := Ideal) m' ρ'⟩
  refine (θ_run Cert.KernelIdeal.defs _ _).mono (fun _ h c => ⟨(h c).1.trans ?_, (h c).2⟩)
    (Cert.KernelIdeal.RunValue.run (F := Ideal) m ρ)
  exact Cert.KernelIdeal.Fold.result_eq m ρ m' c (hagree c).1 (hagree c).2.1 (hagree c).2.2.1 (hagree c).2.2.2.1
    (hagree c).2.2.2.2.1 (hagree c).2.2.2.2.2.1 (hagree c).2.2.2.2.2.2.1 (hagree c).2.2.2.2.2.2.2.1
    (hagree c).2.2.2.2.2.2.2.2.1 (hagree c).2.2.2.2.2.2.2.2.2.1 (hagree c).2.2.2.2.2.2.2.2.2.2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
